-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S100000x64 : Shape := ⟨2, ![100000, 64]⟩
abbrev S4000x64 : Shape := ⟨2, ![4000, 64]⟩
abbrev S1700000x64 : Shape := ⟨2, ![1700000, 64]⟩
abbrev S1x64 : Shape := ⟨2, ![1, 64]⟩
abbrev S4000 : Shape := ⟨1, ![4000]⟩
abbrev S4000x1 : Shape := ⟨2, ![4000, 1]⟩

abbrev nBuf : Space → Nat
  | .hbm => 80
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x64, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x64, .f32⟩
  | .hbm, ⟨71, _⟩ => ⟨S1700000x1, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S1x64, .f32⟩
  | .hbm, ⟨79, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x128, .f32⟩
  | 52 => ⟨S1700000x1, .f32⟩
  | 53 => ⟨S1700000x128, .f32⟩
  | 54 => ⟨S1700000x128, .f32⟩
  | 55 => ⟨S_, .f32⟩
  | 56 => ⟨S100000x128, .f32⟩
  | 57 => ⟨S1700000x1, .i32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x64, .f32⟩
  | 66 => ⟨S100000, .i32⟩
  | 67 => ⟨S1700000, .i32⟩
  | 68 => ⟨S1700000, .i32⟩
  | 69 => ⟨S_, .f32⟩
  | 70 => ⟨S1700000, .f32⟩
  | 71 => ⟨S_, .f32⟩
  | 72 => ⟨S100000, .f32⟩
  | 73 => ⟨S1700000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x64, .f32⟩
  | 124 => ⟨S100000x64, .f32⟩
  | 125 => ⟨S100000x64, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S100000x1, .f32⟩
  | 2 => ⟨S100000x64, .f32⟩
  | 3 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call1_cst : Ref sig .tc := ⟨.hbm, 117, rfl⟩
abbrev main_call1_v0 : Ref sig .tc := ⟨.hbm, 118, rfl⟩
abbrev main_call1_cst_0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_v6 : Ref sig .tc := ⟨.hbm, 125, rfl⟩
abbrev main_call1_cst_1 : Ref sig .tc := ⟨.hbm, 126, rfl⟩
abbrev main_call1_v7 : Ref sig .tc := ⟨.hbm, 127, rfl⟩
abbrev main_call1_v8 : Ref sig .tc := ⟨.hbm, 128, rfl⟩
abbrev main_call1_v9 : Ref sig .tc := ⟨.hbm, 129, rfl⟩
abbrev main_call1_v10 : Ref sig .tc := ⟨.hbm, 130, rfl⟩
abbrev main_v89 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  The program is four grid regions among stretches of host operations. Its buffer contents after the last region are a
  fold from the launch memory: each host stretch applies its operations, each region replaces its output array by what
  its grid points write back. Every weakly fair execution terminates, nothing faulting, with the result buffer at that
  fold's value and the six argument arrays as launched.
-/
import proofs.«129945_j55989193670847_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents (the fold of the
    host stretches and the regions' write-backs from the launch memory) and the arguments unchanged: the last thread
    state holds every unscoped buffer at those contents, and the result buffer is one of them. -/
theorem run_result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Result

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«129945_j55989193670847_1_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.LibKeepdims.lean ====
/-
  Row-wise reductions with kept dimensions, read at an entry.

  For an [a, b] matrix: a sum or a maximum along axis 1 at row p is the sum, or the fold of `max` from the initial
  value, over the b entries of row p — for a lane reduction inside a kernel body and for a host reduction alike; the
  reduced [a] vector cast to an [a, 1] column reads at (p, 0) the vector at p; and an [a, 1] column broadcast to [a, b]
  reads at (p, c) the column at (p, 0). Together these read `reduce(keepdims=True)` followed by a broadcast back.
-/
import Idealize.ShloMosaic.PureOps.Ideal.Laws
import Idealize.ShloMosaic.Lib.Pipeline.Value
import Idealize.ShloMosaic.Lib.ValueIdx

noncomputable section

namespace Cert.LibKeepdims

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index p of a reduction along axis 1 with coordinate k put back is (p, k). -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A lane sum along axis 1, at row p: the sum of the row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A lane maximum along axis 1, at row p: the fold of `max` from the accumulator's value over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (lift_row h p k)))

/-- The host's sum along axis 1, at row p: the initial value plus the sum of the row. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- The host's maximum along axis 1, at row p: the fold of `max` from the initial value over the row. -/
theorem hostReduce_max_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => Finset.fold max (init (Shape.Idx.first hu)) f (Finset.univ : Finset (Fin b)))
      (funext fun k => congrArg x (lift_row h p k)))

end Cert.LibKeepdims

end
-- ==== Proof.LibLsmRow.lean ====
/-
  Log-softmax along the rows of a matrix, read at an entry, over the extended reals.

  For a row v the log-softmax at column c is (v c - M) - log (sum over q of exp (v q - M)), M the largest entry of the
  row folded from negative infinity. A kernel body spells it on an [a, b] block with lane reductions that keep the
  reduced axis as a unit axis and broadcast it back: the maximum along axis 1, the block less it, the exponential,
  the sum along axis 1, its logarithm, and the shifted block less that. Read at (r, c) this is the log-softmax of row r.
-/
import proofs.«129945_j55989193670847_1_alg».proof.Proof.LibKeepdims
import Idealize.ShloMosaic.PureOps.Ideal.Laws
import Idealize.ShloMosaic.Lib.Pipeline.Value
import Idealize.ShloMosaic.Lib.ValueIdx

noncomputable section

namespace Cert.LibLsmRow

open Idealize.ShloMosaic Idealize.ShloMosaic.ValueIdx

/-- The largest entry of a row, folded from negative infinity. -/
def rowMax {b : ℕ} (v : Fin b → EReal) : EReal :=
  (Finset.univ : Finset (Fin b)).fold max (Ideal.ofBits .f32 0xFF800000#32) v

/-- Log-softmax of a row at a column: the entry less the row's maximum, less the logarithm of the sum of the
    exponentials of the row's entries less the maximum. -/
def lsmRow {b : ℕ} (v : Fin b → EReal) (c : Fin b) : EReal :=
  (v c - rowMax v) - Ideal.log (∑ q : Fin b, Ideal.exp (v q - rowMax v))

/-- Negative infinity is below the fold that starts from it, so taking the maximum with it again changes nothing. -/
theorem max_negInf_rowMax {b : ℕ} (v : Fin b → EReal) : max (Ideal.ofBits .f32 0xFF800000#32) (rowMax v) = rowMax v :=
  max_eq_right (by unfold rowMax; exact (Finset.le_fold_max _).mpr (Or.inl le_rfl))

variable {a b : ℕ}

/-- The row maximum kept as a column and broadcast back, at (r, c): the maximum of row r. -/
theorem keptMax_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hacc : (0xFF800000#32 : BitVec FTy.f32.bits) = FKind.maximumf.neutral .f32 hφ) (r : Fin a) (c : Fin b) :
    broadcastTo ⟨2, ![a, b]⟩ (shapeCast ⟨2, ![a, 1]⟩ (multiReduction .maximumf [1] ⟨1, ![a]⟩ x 0xFF800000#32 hr hφ hacc) hc) hb (ix2 r c)
      = rowMax (fun q => x (ix2 r q)) := by
  rw [Cert.LibKeepdims.broadcastTo_a1_ab_apply, Cert.LibKeepdims.shapeCast_a_a1_apply,
    Cert.LibKeepdims.multiReduction_max_row]
  rfl

/-- A kernel body's log-softmax of an [a, b] block along axis 1, at (r, c): the log-softmax of row r at column c. -/
theorem kernel_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec FTy.f32.bits) = FKind.maximumf.neutral .f32 hφ)
    (hadd : (0x00000000#32 : BitVec FTy.f32.bits) = FKind.add.neutral .f32 hφ) (r : Fin a) (c : Fin b) :
    subf
      (subf x (broadcastTo ⟨2, ![a, b]⟩ (shapeCast ⟨2, ![a, 1]⟩ (multiReduction .maximumf [1] ⟨1, ![a]⟩ x 0xFF800000#32 hr hφ hmax) hc) hb))
      (broadcastTo ⟨2, ![a, b]⟩
        (log (shapeCast ⟨2, ![a, 1]⟩
          (multiReduction .add [1] ⟨1, ![a]⟩
            (exp (subf x (broadcastTo ⟨2, ![a, b]⟩ (shapeCast ⟨2, ![a, 1]⟩ (multiReduction .maximumf [1] ⟨1, ![a]⟩ x 0xFF800000#32 hr hφ hmax) hc) hb)))
            0x00000000#32 hr hφ hadd) hc)) hb)
      (ix2 r c)
    = lsmRow (fun q => x (ix2 r q)) c := by
  rw [subf_apply, subf_apply, keptMax_apply, Cert.LibKeepdims.broadcastTo_a1_ab_apply]
  show (x (ix2 r c) - rowMax fun q => x (ix2 r q)) - Ideal.log (shapeCast ⟨2, ![a, 1]⟩ _ hc (ix2 r (0 : Fin 1))) = _
  rw [Cert.LibKeepdims.shapeCast_a_a1_apply, Cert.LibKeepdims.multiReduction_add_row]
  unfold lsmRow
  refine congrArg (fun s => (x (ix2 r c) - rowMax fun q => x (ix2 r q)) - Ideal.log s) (Finset.sum_congr rfl fun k _ => ?_)
  show Ideal.exp (subf x _ (ix2 r k)) = _
  rw [subf_apply, keptMax_apply]

end Cert.LibLsmRow

end
-- ==== Proof.RegionRows.lean ====
/-
  The four kernel bodies at an entry, over the extended reals.

  Each body stores one value computed from the blocks it loads. Read at row r and column c of the stored block:
  the first and third bodies give the sum over k of a (r, k) * w (k, c) (the narrowing of the operands is the
  identity on extended reals, and the accumulator starts at zero); the second gives max (a (r, c) + b (0, c)) 0;
  the fourth gives the log-softmax of row r of a + b at column c: with v q = a (r, q) + b (0, q) and M the largest
  v q (folded from negative infinity), (v c - M) - log (sum over q of exp (v q - M)).
-/
import proofs.«129945_j55989193670847_1_alg».proof.Proof.Gen.KernelIdeal.Skeleton
import proofs.«129945_j55989193670847_1_alg».proof.Proof.LibDotApply
import proofs.«129945_j55989193670847_1_alg».proof.Proof.LibLsmRow
import Idealize.ShloMosaic.Lib.ValueLayout
import Idealize.ShloMosaic.Lib.Pipeline.Value

noncomputable section

namespace Cert.KernelIdeal.Rows

open Cert.KernelIdeal Cert.KernelIdeal.Gen Cert.LibLsmRow Idealize.ShloMosaic Idealize.ShloMosaic.ValueIdx

/-- Both kernel products contract the left operand's columns with the right operand's rows, with no batch axis. -/
theorem plain0 : Cert.LibPlainDot.IsPlain dot_S4000x128_S128x128_S4000x128_1_0_0_1_n_n := ⟨rfl, rfl, rfl, rfl, rfl, rfl⟩
theorem plain2 : Cert.LibPlainDot.IsPlain dot_S4000x128_S128x64_S4000x64_1_0_0_1_n_n := ⟨rfl, rfl, rfl, rfl, rfl, rfl⟩

/-- The first body: a block of rows times the whole weight matrix. -/
theorem pay0_apply (a : FVec Ideal S4000x128 .f32) (w : FVec Ideal S128x128 .f32) (r : Fin 4000) (c : Fin 128) :
    k0_pay1 (F := Ideal) a w (ix2 r c) = ∑ k : Fin 128, a (ix2 r k) * w (ix2 k c) := by
  unfold k0_pay1
  exact Cert.LibDotApply.matmul_zero_apply dot_S4000x128_S128x128_S4000x128_1_0_0_1_n_n plain0 none
    (truncf .bf16 a bitsLt_bf16_f32) (truncf .bf16 w bitsLt_bf16_f32) r c

/-- The third body: a block of rows times the second weight matrix. -/
theorem pay2_apply (a : FVec Ideal S4000x128 .f32) (w : FVec Ideal S128x64 .f32) (r : Fin 4000) (c : Fin 64) :
    k2_pay1 (F := Ideal) a w (ix2 r c) = ∑ k : Fin 128, a (ix2 r k) * w (ix2 k c) := by
  unfold k2_pay1
  rw [shapeCast_self]
  exact Cert.LibDotApply.matmul_zero_apply dot_S4000x128_S128x64_S4000x64_1_0_0_1_n_n plain2 none
    (truncf .bf16 a bitsLt_bf16_f32) (truncf .bf16 w bitsLt_bf16_f32) r c

/-- The second body: the bias row added to every row, clamped below at zero. -/
theorem pay1_apply (a : FVec Ideal S4000x128 .f32) (b : FVec Ideal S1x128 .f32) (r : Fin 4000) (c : Fin 128) :
    k1_pay1 (F := Ideal) a b (ix2 r c) = max (a (ix2 r c) + b (ix2 (0 : Fin 1) c)) (Ideal.ofBits .f32 0x00000000#32) := by
  unfold k1_pay1
  rw [shapeCast_self, shapeCast_self, maximumf_apply, addf_apply, broadcastTo_1b_ab_apply]
  rfl

/-- The fourth body: the bias row added to every row, then log-softmax along each row. -/
theorem pay3_apply (a : FVec Ideal S4000x64 .f32) (b : FVec Ideal S1x64 .f32) (r : Fin 4000) (c : Fin 64) :
    k3_pay1 (F := Ideal) a b (ix2 r c) = lsmRow (fun q : Fin 64 => a (ix2 r q) + b (ix2 (0 : Fin 1) q)) c := by
  unfold k3_pay1
  rw [shapeCast_self, shapeCast_self]
  refine (Cert.LibLsmRow.kernel_apply (addf a (broadcastTo S4000x64 b broadcasts_S1x64_S4000x64)) reduces_S4000x64_S4000
    shapeCasts_S4000_S4000x1 broadcasts_S4000x1_S4000x64 (.inl rfl) rfl rfl r c).trans ?_
  refine congrArg (fun v => lsmRow v c) (funext fun q => ?_)
  rw [addf_apply, broadcastTo_1b_ab_apply]

end Cert.KernelIdeal.Rows

end
-- ==== Proof.ArraySpec.lean ====
/-
  The four whole-array functions the kernel's regions compute, over the extended reals.

  A matrix product of an [n, K] array with a [K, M] array; a bias row [1, M] added to every row of an [n, M] array and
  clamped below at zero; and the same sum followed by log-softmax along each row.
-/
import proofs.«129945_j55989193670847_1_alg».proof.Proof.LibLsmRow
import Idealize.ShloMosaic.Lib.ValueIdx

noncomputable section

namespace Cert.ArraySpec

open Idealize.ShloMosaic Idealize.ShloMosaic.ValueIdx Cert.LibLsmRow

variable {n K M : ℕ}

/-- Entry (p, c) of the product: the sum over k of X (p, k) * W (k, c). -/
def matProd (X : (⟨2, ![n, K]⟩ : Shape).Idx → EReal) (W : (⟨2, ![K, M]⟩ : Shape).Idx → EReal) :
    (⟨2, ![n, M]⟩ : Shape).Idx → EReal :=
  fun i => ∑ k : Fin K, X (ix2 (i 0) k) * W (ix2 k (i 1))

/-- Entry (p, c): A (p, c) + B (0, c), clamped below at zero. -/
def biasClamp (A : (⟨2, ![n, M]⟩ : Shape).Idx → EReal) (B : (⟨2, ![1, M]⟩ : Shape).Idx → EReal) :
    (⟨2, ![n, M]⟩ : Shape).Idx → EReal :=
  fun i => max (A i + B (ix2 (0 : Fin 1) (i 1))) (Ideal.ofBits .f32 0x00000000#32)

/-- Entry (p, c): the log-softmax, at column c, of row p of A with the row B added. -/
def biasLsm (A : (⟨2, ![n, M]⟩ : Shape).Idx → EReal) (B : (⟨2, ![1, M]⟩ : Shape).Idx → EReal) :
    (⟨2, ![n, M]⟩ : Shape).Idx → EReal :=
  fun i => lsmRow (fun q : Fin M => A (ix2 (i 0) q) + B (ix2 (0 : Fin 1) q)) (i 1)

end Cert.ArraySpec

end
-- ==== Proof.Blocks0.lean ====
/-
  Region 0 (the first matrix product): what the output array holds after the region.

  The grid has 25 points; point t loads rows 4000 t … 4000 t + 3999 of the first array and the whole second array and
  writes back the same rows of the output. Entry (p, c) of the block it writes is the sum over k of first (4000 t + p, k) * second (k, c).
  So the block is the restriction of one whole-array function to those rows; the 25 blocks tile the output's rows, and
  the array ends holding that function of the arrays the region found.
-/
import proofs.«129945_j55989193670847_1_alg».proof.Proof.Gen.KernelIdeal.Frame
import proofs.«129945_j55989193670847_1_alg».proof.Proof.RegionRows
import proofs.«129945_j55989193670847_1_alg».proof.Proof.ArraySpec
import Idealize.ShloMosaic.Lib.Pipeline.Value

set_option maxRecDepth 16384

noncomputable section

namespace Cert.KernelIdeal.Blocks0

open Cert.KernelIdeal Cert.KernelIdeal.Gen Cert.ArraySpec Cert.LibLsmRow
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the whole one at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_N (t : Fin cfg0.N) : t.val < 25 := lt_of_lt_of_eq t.isLt N_0

/-- Row p of point t's block is row 4000 t + p of the array. -/
def rowOf (t : Fin cfg0.N) (p : Fin 4000) : Fin 100000 :=
  ⟨t.val * 4000 + p.val, by have := lt_N t; have := p.isLt; omega⟩

/-- The first window's block at point t, read at an entry. -/
theorem read0 (c : Dev nD) (t : Fin cfg0.N) (y : S4000x128.Idx) :
    iblk0 V c 0 t y = V c main_arg0 (ix2 (rowOf t (y 0)) (y 1)) := by
  obtain ⟨e00, e01, -, -, -, -⟩ := idx_facts t
  show V c main_arg0 (((cfg0.win 0).blk t).view.emb y) = V c main_arg0 _
  refine congrArg (V c main_arg0) (funext fun a => Fin.ext ?_)
  match a with
  | ⟨0, _⟩ => show win0_0.index t (0 : Fin 2) * 4000 + 1 * (y 0).val = t.val * 4000 + (y 0).val; omega
  | ⟨1, _⟩ => show win0_0.index t (1 : Fin 2) * 128 + 1 * (y 1).val = (y 1).val; omega

/-- The second window's block is the whole second array. -/
theorem read1 (c : Dev nD) (t : Fin cfg0.N) (y : S128x128.Idx) : iblk0 V c 1 t y = V c main_arg2 y := by
  obtain ⟨-, -, e10, e11, -, -⟩ := idx_facts t
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Where an entry of point t's output block sits in the output array. -/
theorem emb2 (t : Fin cfg0.N) (j : S4000x128.Idx) :
    ((cfg0.win 2).blk t).view.emb j = ix2 (rowOf t (j 0)) (j 1) := by
  obtain ⟨-, -, -, -, e20, e21⟩ := idx_facts t
  refine funext fun a => Fin.ext ?_
  match a with
  | ⟨0, _⟩ => show win0_2.index t (0 : Fin 2) * 4000 + 1 * (j 0).val = t.val * 4000 + (j 0).val; omega
  | ⟨1, _⟩ => show win0_2.index t (1 : Fin 2) * 128 + 1 * (j 1).val = (j 1).val; omega

/-- What point t writes back is block t of the whole-array function. -/
theorem flushed_eq (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  funext j
  show k0_pay1 (iblk0 V c 0 t) (iblk0 V c 1 t) j = matProd (V c main_arg0) (V c main_arg2) (((cfg0.win 2).blk t).view.emb j)
  rw [emb2 t j, eq_ix2 j]
  refine (Rows.pay0_apply (iblk0 V c 0 t) (iblk0 V c 1 t) (j 0) (j 1)).trans ?_
  refine Finset.sum_congr rfl fun k _ => ?_
  rw [read0 V c t, read1 V c t]

/-- An index of the array is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v29).slice (win0_2.rect t)).set ↔ _
  rw [View.set_slice_whole, Rect.mem_set_unit]
  exact Iff.rfl

/-- Every index of the output is in the block of the point that owns its row. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  have ht : t.val = (i 0).val / 4000 := rfl
  obtain ⟨-, -, -, -, e20, e21⟩ := idx_facts t
  refine ⟨t, flush0_2 t, (mem_blk t i).mpr fun a => ?_⟩
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- After the region the output array holds the whole-array function of the arrays the region found. -/
theorem final (c : Dev nD) : (dat0 V c).arrAt 2 cfg0.N = matProd (V c main_arg0) (V c main_arg2) :=
  (dat0 V c).arrAt_eq_of_cover 2 _ (fun t _ => flushed_eq V c t) cover

end Cert.KernelIdeal.Blocks0

end
-- ==== Proof.Blocks1.lean ====
/-
  Region 1 (bias and clamp): what the output array holds after the region.

  The grid has 25 points; point t loads rows 4000 t … 4000 t + 3999 of the first array and the whole second array and
  writes back the same rows of the output. Entry (p, c) of the block it writes is first (4000 t + p, c) + second (0, c), clamped below at zero.
  So the block is the restriction of one whole-array function to those rows; the 25 blocks tile the output's rows, and
  the array ends holding that function of the arrays the region found.
-/
import proofs.«129945_j55989193670847_1_alg».proof.Proof.Gen.KernelIdeal.Frame
import proofs.«129945_j55989193670847_1_alg».proof.Proof.RegionRows
import proofs.«129945_j55989193670847_1_alg».proof.Proof.ArraySpec
import Idealize.ShloMosaic.Lib.Pipeline.Value

set_option maxRecDepth 16384

noncomputable section

namespace Cert.KernelIdeal.Blocks1

open Cert.KernelIdeal Cert.KernelIdeal.Gen Cert.ArraySpec Cert.LibLsmRow
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the whole one at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt_N (t : Fin cfg1.N) : t.val < 25 := lt_of_lt_of_eq t.isLt N_1

/-- Row p of point t's block is row 4000 t + p of the array. -/
def rowOf (t : Fin cfg1.N) (p : Fin 4000) : Fin 100000 :=
  ⟨t.val * 4000 + p.val, by have := lt_N t; have := p.isLt; omega⟩

/-- The first window's block at point t, read at an entry. -/
theorem read0 (c : Dev nD) (t : Fin cfg1.N) (y : S4000x128.Idx) :
    iblk1 V c 0 t y = V c main_v42 (ix2 (rowOf t (y 0)) (y 1)) := by
  obtain ⟨e00, e01, -, -, -, -⟩ := idx_facts t
  show V c main_v42 (((cfg1.win 0).blk t).view.emb y) = V c main_v42 _
  refine congrArg (V c main_v42) (funext fun a => Fin.ext ?_)
  match a with
  | ⟨0, _⟩ => show win1_0.index t (0 : Fin 2) * 4000 + 1 * (y 0).val = t.val * 4000 + (y 0).val; omega
  | ⟨1, _⟩ => show win1_0.index t (1 : Fin 2) * 128 + 1 * (y 1).val = (y 1).val; omega

/-- The second window's block is the whole second array. -/
theorem read1 (c : Dev nD) (t : Fin cfg1.N) (y : S1x128.Idx) : iblk1 V c 1 t y = V c main_v43 y := by
  obtain ⟨-, -, e10, e11, -, -⟩ := idx_facts t
  show V c main_v43 (((cfg1.win 1).blk t).view.emb y) = V c main_v43 y
  refine congrArg (V c main_v43) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Where an entry of point t's output block sits in the output array. -/
theorem emb2 (t : Fin cfg1.N) (j : S4000x128.Idx) :
    ((cfg1.win 2).blk t).view.emb j = ix2 (rowOf t (j 0)) (j 1) := by
  obtain ⟨-, -, -, -, e20, e21⟩ := idx_facts t
  refine funext fun a => Fin.ext ?_
  match a with
  | ⟨0, _⟩ => show win1_2.index t (0 : Fin 2) * 4000 + 1 * (j 0).val = t.val * 4000 + (j 0).val; omega
  | ⟨1, _⟩ => show win1_2.index t (1 : Fin 2) * 128 + 1 * (j 1).val = (j 1).val; omega

/-- What point t writes back is block t of the whole-array function. -/
theorem flushed_eq (c : Dev nD) (t : Fin cfg1.N) :
    (dat1 V c).flushed 2 t
      = ((cfg1.win 2).blk t).view.read (Elt Ideal) (biasClamp (V c main_v42) (V c main_v43)) := by
  show (cfg1.win 2).cut (grid1.coords t) ((dat1 V c).after 2 t) = _
  rw [after1_2]
  unfold out1_2
  rw [View.canon_unit_zero hz]
  simp only [View.ld_unit_zero (S := S4000x128) hz, View.ld_unit_zero (S := S1x128) hz]
  funext j
  show k1_pay1 (iblk1 V c 0 t) (iblk1 V c 1 t) j = biasClamp (V c main_v42) (V c main_v43) (((cfg1.win 2).blk t).view.emb j)
  rw [emb2 t j, eq_ix2 j]
  refine (Rows.pay1_apply (iblk1 V c 0 t) (iblk1 V c 1 t) (j 0) (j 1)).trans ?_
  rw [read0 V c t, read1 V c t]
  rfl

/-- An index of the array is in point t's block iff each coordinate is in the block's range on its axis. -/
theorem mem_blk (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v44).slice (win1_2.rect t)).set ↔ _
  rw [View.set_slice_whole, Rect.mem_set_unit]
  exact Iff.rfl

/-- Every index of the output is in the block of the point that owns its row. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  have ht : t.val = (i 0).val / 4000 := rfl
  obtain ⟨-, -, -, -, e20, e21⟩ := idx_facts t
  refine ⟨t, flush1_2 t, (mem_blk t i).mpr fun a => ?_⟩
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- After the region the output array holds the whole-array function of the arrays the region found. -/
theorem final (c : Dev nD) : (dat1 V c).arrAt 2 cfg1.N = biasClamp (V c main_v42) (V c main_v43) :=
  (dat1 V c).arrAt_eq_of_cover 2 _ (fun t _ => flushed_eq V c t) cover

end Cert.KernelIdeal.Blocks1

end
-- ==== Proof.Blocks2.lean ====
/-
  Region 2 (the second matrix product): what the output array holds after the region.

  The grid has 25 points; point t loads rows 4000 t … 4000 t + 3999 of the first array and the whole second array and
  writes back the same rows of the output. Entry (p, c) of the block it writes is the sum over k of first (4000 t + p, k) * second (k, c).
  So the block is the restriction of one whole-array function to those rows; the 25 blocks tile the output's rows, and
  the array ends holding that function of the arrays the region found.
-/
import proofs.«129945_j55989193670847_1_alg».proof.Proof.Gen.KernelIdeal.Frame
import proofs.«129945_j55989193670847_1_alg».proof.Proof.RegionRows
import proofs.«129945_j55989193670847_1_alg».proof.Proof.ArraySpec
import Idealize.ShloMosaic.Lib.Pipeline.Value

set_option maxRecDepth 16384

noncomputable section

namespace Cert.KernelIdeal.Blocks2

open Cert.KernelIdeal Cert.KernelIdeal.Gen Cert.ArraySpec Cert.LibLsmRow
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the whole one at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt_N (t : Fin cfg2.N) : t.val < 25 := lt_of_lt_of_eq t.isLt N_2

/-- Row p of point t's block is row 4000 t + p of the array. -/
def rowOf (t : Fin cfg2.N) (p : Fin 4000) : Fin 100000 :=
  ⟨t.val * 4000 + p.val, by have := lt_N t; have := p.isLt; omega⟩

/-- The first window's block at point t, read at an entry. -/
theorem read0 (c : Dev nD) (t : Fin cfg2.N) (y : S4000x128.Idx) :
    iblk2 V c 0 t y = V c main_v44 (ix2 (rowOf t (y 0)) (y 1)) := by
  obtain ⟨e00, e01, -, -, -, -⟩ := idx_facts t
  show V c main_v44 (((cfg2.win 0).blk t).view.emb y) = V c main_v44 _
  refine congrArg (V c main_v44) (funext fun a => Fin.ext ?_)
  match a with
  | ⟨0, _⟩ => show win2_0.index t (0 : Fin 2) * 4000 + 1 * (y 0).val = t.val * 4000 + (y 0).val; omega
  | ⟨1, _⟩ => show win2_0.index t (1 : Fin 2) * 128 + 1 * (y 1).val = (y 1).val; omega

/-- The second window's block is the whole second array. -/
theorem read1 (c : Dev nD) (t : Fin cfg2.N) (y : S128x64.Idx) : iblk2 V c 1 t y = V c main_arg4 y := by
  obtain ⟨-, -, e10, e11, -, -⟩ := idx_facts t
  show V c main_arg4 (((cfg2.win 1).blk t).view.emb y) = V c main_arg4 y
  refine congrArg (V c main_arg4) (funext fun a => Fin.ext ?_)
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- Where an entry of point t's output block sits in the output array. -/
theorem emb2 (t : Fin cfg2.N) (j : S4000x64.Idx) :
    ((cfg2.win 2).blk t).view.emb j = ix2 (rowOf t (j 0)) (j 1) := by
  obtain ⟨-, -, -, -, e20, e21⟩ := idx_facts t
  refine funext fun a => Fin.ext ?_
  match a with
  | ⟨0, _⟩ => show win2_2.index t (0 : Fin 2) * 4000 + 1 * (j 0).val = t.val * 4000 + (j 0).val; omega
  | ⟨1, _⟩ => show win2_2.index t (1 : Fin 2) * 64 + 1 * (j 1).val = (j 1).val; omega

/-- What point t writes back is block t of the whole-array function. -/
theorem flushed_eq (c : Dev nD) (t : Fin cfg2.N) :
    (dat2 V c).flushed 2 t
      = ((cfg2.win 2).blk t).view.read (Elt Ideal) (matProd (V c main_v44) (V c main_arg4)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x64) hz]
  funext j
  show k2_pay1 (iblk2 V c 0 t) (iblk2 V c 1 t) j = matProd (V c main_v44) (V c main_arg4) (((cfg2.win 2).blk t).view.emb j)
  rw [emb2 t j, eq_ix2 j]
  refine (Rows.pay2_apply (iblk2 V c 0 t) (iblk2 V c 1 t) (j 0) (j 1)).trans ?_
  refine Finset.sum_congr rfl fun k _ => ?_
  rw [read0 V c t, read1 V c t]

/-- An index of the array is in point t's block iff each coordinate is in the block's range on its axis. -/
theorem mem_blk (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v45).slice (win2_2.rect t)).set ↔ _
  rw [View.set_slice_whole, Rect.mem_set_unit]
  exact Iff.rfl

/-- Every index of the output is in the block of the point that owns its row. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 25 := N_2
  let t : Fin cfg2.N := ⟨(i 0).val / 4000, by rw [hN]; omega⟩
  have ht : t.val = (i 0).val / 4000 := rfl
  obtain ⟨-, -, -, -, e20, e21⟩ := idx_facts t
  refine ⟨t, flush2_2 t, (mem_blk t i).mpr fun a => ?_⟩
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 64 ≤ (i 1).val ∧ (i 1).val < win2_2.index t (1 : Fin 2) * 64 + 64; omega

/-- After the region the output array holds the whole-array function of the arrays the region found. -/
theorem final (c : Dev nD) : (dat2 V c).arrAt 2 cfg2.N = matProd (V c main_v44) (V c main_arg4) :=
  (dat2 V c).arrAt_eq_of_cover 2 _ (fun t _ => flushed_eq V c t) cover

end Cert.KernelIdeal.Blocks2

end
-- ==== Proof.Blocks3.lean ====
/-
  Region 3 (bias and log-softmax): what the output array holds after the region.

  The grid has 25 points; point t loads rows 4000 t … 4000 t + 3999 of the first array and the whole second array and
  writes back the same rows of the output. Entry (p, c) of the block it writes is the log-softmax at column c of the row first (4000 t + p, ·) + second (0, ·).
  So the block is the restriction of one whole-array function to those rows; the 25 blocks tile the output's rows, and
  the array ends holding that function of the arrays the region found.
-/
import proofs.«129945_j55989193670847_1_alg».proof.Proof.Gen.KernelIdeal.Frame
import proofs.«129945_j55989193670847_1_alg».proof.Proof.RegionRows
import proofs.«129945_j55989193670847_1_alg».proof.Proof.ArraySpec
import Idealize.ShloMosaic.Lib.Pipeline.Value

set_option maxRecDepth 16384

noncomputable section

namespace Cert.KernelIdeal.Blocks3

open Cert.KernelIdeal Cert.KernelIdeal.Gen Cert.ArraySpec Cert.LibLsmRow
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the whole one at (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt_N (t : Fin cfg3.N) : t.val < 25 := lt_of_lt_of_eq t.isLt N_3

/-- Row p of point t's block is row 4000 t + p of the array. -/
def rowOf (t : Fin cfg3.N) (p : Fin 4000) : Fin 100000 :=
  ⟨t.val * 4000 + p.val, by have := lt_N t; have := p.isLt; omega⟩

/-- The first window's block at point t, read at an entry. -/
theorem read0 (c : Dev nD) (t : Fin cfg3.N) (y : S4000x64.Idx) :
    iblk3 V c 0 t y = V c main_v58 (ix2 (rowOf t (y 0)) (y 1)) := by
  obtain ⟨e00, e01, -, -, -, -⟩ := idx_facts t
  show V c main_v58 (((cfg3.win 0).blk t).view.emb y) = V c main_v58 _
  refine congrArg (V c main_v58) (funext fun a => Fin.ext ?_)
  match a with
  | ⟨0, _⟩ => show win3_0.index t (0 : Fin 2) * 4000 + 1 * (y 0).val = t.val * 4000 + (y 0).val; omega
  | ⟨1, _⟩ => show win3_0.index t (1 : Fin 2) * 64 + 1 * (y 1).val = (y 1).val; omega

/-- The second window's block is the whole second array. -/
theorem read1 (c : Dev nD) (t : Fin cfg3.N) (y : S1x64.Idx) : iblk3 V c 1 t y = V c main_v59 y := by
  obtain ⟨-, -, e10, e11, -, -⟩ := idx_facts t
  show V c main_v59 (((cfg3.win 1).blk t).view.emb y) = V c main_v59 y
  refine congrArg (V c main_v59) (funext fun a => Fin.ext ?_)
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- Where an entry of point t's output block sits in the output array. -/
theorem emb2 (t : Fin cfg3.N) (j : S4000x64.Idx) :
    ((cfg3.win 2).blk t).view.emb j = ix2 (rowOf t (j 0)) (j 1) := by
  obtain ⟨-, -, -, -, e20, e21⟩ := idx_facts t
  refine funext fun a => Fin.ext ?_
  match a with
  | ⟨0, _⟩ => show win3_2.index t (0 : Fin 2) * 4000 + 1 * (j 0).val = t.val * 4000 + (j 0).val; omega
  | ⟨1, _⟩ => show win3_2.index t (1 : Fin 2) * 64 + 1 * (j 1).val = (j 1).val; omega

/-- What point t writes back is block t of the whole-array function. -/
theorem flushed_eq (c : Dev nD) (t : Fin cfg3.N) :
    (dat3 V c).flushed 2 t
      = ((cfg3.win 2).blk t).view.read (Elt Ideal) (biasLsm (V c main_v58) (V c main_v59)) := by
  show (cfg3.win 2).cut (grid3.coords t) ((dat3 V c).after 2 t) = _
  rw [after3_2]
  unfold out3_2
  rw [View.canon_unit_zero hz]
  simp only [View.ld_unit_zero (S := S4000x64) hz, View.ld_unit_zero (S := S1x64) hz]
  funext j
  show k3_pay1 (iblk3 V c 0 t) (iblk3 V c 1 t) j = biasLsm (V c main_v58) (V c main_v59) (((cfg3.win 2).blk t).view.emb j)
  rw [emb2 t j, eq_ix2 j]
  refine (Rows.pay3_apply (iblk3 V c 0 t) (iblk3 V c 1 t) (j 0) (j 1)).trans ?_
  refine congrArg (fun v => lsmRow v (j 1)) (funext fun q => ?_)
  rw [read0 V c t, read1 V c t]

/-- An index of the array is in point t's block iff each coordinate is in the block's range on its axis. -/
theorem mem_blk (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v60).slice (win3_2.rect t)).set ↔ _
  rw [View.set_slice_whole, Rect.mem_set_unit]
  exact Iff.rfl

/-- Every index of the output is in the block of the point that owns its row. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 25 := N_3
  let t : Fin cfg3.N := ⟨(i 0).val / 4000, by rw [hN]; omega⟩
  have ht : t.val = (i 0).val / 4000 := rfl
  obtain ⟨-, -, -, -, e20, e21⟩ := idx_facts t
  refine ⟨t, flush3_2 t, (mem_blk t i).mpr fun a => ?_⟩
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 64 ≤ (i 1).val ∧ (i 1).val < win3_2.index t (1 : Fin 2) * 64 + 64; omega

/-- After the region the output array holds the whole-array function of the arrays the region found. -/
theorem final (c : Dev nD) : (dat3 V c).arrAt 2 cfg3.N = biasLsm (V c main_v58) (V c main_v59) :=
  (dat3 V c).arrAt_eq_of_cover 2 _ (fun t _ => flushed_eq V c t) cover

end Cert.KernelIdeal.Blocks3

end
-- ==== Proof.RefBridge.lean ====
/-
  The reference's stages as the whole-array functions of the specification, over the extended reals.

  The reference computes, stage by stage: the product x W1; the aggregation (a gather, a scaling and a scatter-add,
  shared with the kernel's program and never opened here); the bias added and the clamp at zero; the product with W2;
  the aggregation again; the bias added and log-softmax along each row. Index by index: a dot_general is the sum over
  k of left (p, k) * right (k, c); the bias, broadcast from [M] through [1, M] to [n, M], reads b (c) at (p, c), as does
  the same vector reshaped to a [1, M] row read at (0, c); the row maximum, a fold of max from negative infinity, is
  unchanged by one more max with negative infinity; and the row sum is zero plus the sum of the row.
  The reference recomputes for its second layer the index vectors and the edge scales it computed for the first: the
  same operations of the same argument, so the same values.
-/
import proofs.«129945_j55989193670847_1_alg».proof.Proof.RefReadP
import proofs.«129945_j55989193670847_1_alg».proof.Proof.ArraySpec
import proofs.«129945_j55989193670847_1_alg».proof.Proof.LibKeepdims
import Idealize.ShloMosaic.Lib.ValueLayout
import Idealize.ShloMosaic.Lib.Pipeline.Value

noncomputable section

namespace Cert.ReferenceIdeal.Bridge

open Cert.ReferenceIdeal Cert.ReferenceIdeal.Gen Cert.ReferenceIdeal.ReadP Cert.ArraySpec Cert.LibLsmRow
open Idealize.ShloMosaic Idealize.ShloMosaic.ValueIdx

/-! ## The second layer's recomputed index vectors and edge scales -/

theorem src2_eq (x1 : (⟨S2x1600000, .i32⟩ : BufTy).Contents (Elt Ideal)) : val_main_v49 (F := Ideal) x1 = val_main_v6 (F := Ideal) x1 := rfl
theorem dst2_eq (x1 : (⟨S2x1600000, .i32⟩ : BufTy).Contents (Elt Ideal)) : val_main_v50 (F := Ideal) x1 = val_main_v7 (F := Ideal) x1 := rfl
theorem norm2_eq (x1 : (⟨S2x1600000, .i32⟩ : BufTy).Contents (Elt Ideal)) : val_main_v72 (F := Ideal) x1 = val_main_v29 (F := Ideal) x1 := rfl

/-! ## The two products -/

theorem matProd_v4 (x0 : (⟨S100000x128, .f32⟩ : BufTy).Contents (Elt Ideal)) (x2 : (⟨S128x128, .f32⟩ : BufTy).Contents (Elt Ideal)) : matProd x0 x2 = val_main_v4 (F := Ideal) x0 x2 := by
  funext i
  obtain ⟨p, c, rfl⟩ : ∃ (p : Fin 100000) (c : Fin 128), i = ix2 p c := ⟨i 0, i 1, eq_ix2 i⟩
  rw [val_main_v4_apply]
  show ∑ k : Fin 128, x0 (ix2 p k) * x2 (ix2 k c) = _
  refine Finset.sum_congr rfl fun k _ => ?_
  have el : lidx_main_v4 (ix2 p c) k = ix2 p k := funext fun a => by match a with | ⟨0, _⟩ => rfl | ⟨1, _⟩ => rfl
  have er : ridx_main_v4 (ix2 p c) k = ix2 k c := funext fun a => by match a with | ⟨0, _⟩ => rfl | ⟨1, _⟩ => rfl
  rw [el, er]

theorem matProd_v47 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    matProd (val_main_v46 (F := Ideal) x0 x1 x2 x3) x4 = val_main_v47 (F := Ideal) x0 x1 x2 x3 x4 := by
  funext i
  obtain ⟨p, c, rfl⟩ : ∃ (p : Fin 100000) (c : Fin 64), i = ix2 p c := ⟨i 0, i 1, eq_ix2 i⟩
  rw [val_main_v47_apply]
  show ∑ k : Fin 128, val_main_v46 (F := Ideal) x0 x1 x2 x3 (ix2 p k) * x4 (ix2 k c) = _
  refine Finset.sum_congr rfl fun k _ => ?_
  have el : lidx_main_v47 (ix2 p c) k = ix2 p k := funext fun a => by match a with | ⟨0, _⟩ => rfl | ⟨1, _⟩ => rfl
  have er : ridx_main_v47 (ix2 p c) k = ix2 k c := funext fun a => by match a with | ⟨0, _⟩ => rfl | ⟨1, _⟩ => rfl
  rw [el, er]

/-! ## Bias and clamp -/

theorem clamp_v46 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (h : (⟨1, ![128]⟩ : Shape).ShapeCasts ⟨2, ![1, 128]⟩) :
    biasClamp (val_main_v42 (F := Ideal) x0 x1 x2) (shapeCast ⟨2, ![1, 128]⟩ x3 h) = val_main_v46 (F := Ideal) x0 x1 x2 x3 := by
  funext i
  obtain ⟨p, c, rfl⟩ : ∃ (p : Fin 100000) (c : Fin 128), i = ix2 p c := ⟨i 0, i 1, eq_ix2 i⟩
  rw [val_main_v46_apply, val_main_v45_apply, val_main_v44_apply, val_main_v43_apply, val_main_call0_v0_apply,
    val_main_call0_cst_apply]
  have e : idx_main_v43 (idx_main_v44 (ix2 p c)) = ix1 c := funext fun a => by match a with | ⟨0, _⟩ => rfl
  rw [e, Ideal.maximumf_def, Ideal.addf_def, Ideal.ofBits_def]
  show max (val_main_v42 (F := Ideal) x0 x1 x2 (ix2 p c) + shapeCast ⟨2, ![1, 128]⟩ x3 h (ix2 (0 : Fin 1) c)) _ = _
  rw [shapeCast_a_1a_apply]

/-! ## Bias and log-softmax -/

section Lsm

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))

/-- Row p of the logits: the aggregated features plus the bias. -/
def logits (p : Fin 100000) (q : Fin 64) : EReal := val_main_v85 (F := Ideal) x0 x1 x2 x3 x4 (ix2 p q) + x5 (ix1 q)

theorem v88_at (p : Fin 100000) (q : Fin 64) :
    val_main_v88 (F := Ideal) x0 x1 x2 x3 x4 x5 (ix2 p q) = logits x0 x1 x2 x3 x4 x5 p q := by
  rw [val_main_v88_apply, val_main_v87_apply, val_main_v86_apply]
  have e : idx_main_v86 (idx_main_v87 (ix2 p q)) = ix1 q := funext fun a => by match a with | ⟨0, _⟩ => rfl
  rw [e, Ideal.addf_def]
  rfl

/-- The row maximum broadcast back, at (p, q): the maximum of row p of the logits. -/
theorem v4_at (p : Fin 100000) (q : Fin 64) :
    val_main_call1_v4 (F := Ideal) x0 x1 x2 x3 x4 x5 (ix2 p q) = rowMax (logits x0 x1 x2 x3 x4 x5 p) := by
  rw [val_main_call1_v4_apply, val_main_call1_v3_apply, val_main_call1_v2_apply, val_main_call1_v1_apply,
    val_main_call1_cst_0_apply]
  have e : idx_main_call1_v3 (idx_main_call1_v4 (ix2 p q)) = ix1 p := funext fun a => by match a with | ⟨0, _⟩ => rfl
  rw [e]
  unfold val_main_call1_v0
  rw [Cert.LibKeepdims.hostReduce_max_row (val_main_v88 (F := Ideal) x0 x1 x2 x3 x4 x5) (val_main_call1_cst (F := Ideal))
    reducesTo_S100000x64_S100000_d1 (by decide) h_S_ p]
  have hrow : (fun k : Fin 64 => val_main_v88 (F := Ideal) x0 x1 x2 x3 x4 x5 (ix2 p k)) = logits x0 x1 x2 x3 x4 x5 p :=
    funext fun k => v88_at x0 x1 x2 x3 x4 x5 p k
  rw [hrow, val_main_call1_cst_apply, Ideal.maximumf_def, Ideal.ofBits_def]
  exact max_negInf_rowMax _

theorem v5_at (p : Fin 100000) (q : Fin 64) :
    val_main_call1_v5 (F := Ideal) x0 x1 x2 x3 x4 x5 (ix2 p q)
      = logits x0 x1 x2 x3 x4 x5 p q - rowMax (logits x0 x1 x2 x3 x4 x5 p) := by
  rw [val_main_call1_v5_apply, v88_at, v4_at, Ideal.subf_def]

/-- The logarithm of the row sum broadcast back, at (p, q). -/
theorem v10_at (p : Fin 100000) (q : Fin 64) :
    val_main_call1_v10 (F := Ideal) x0 x1 x2 x3 x4 x5 (ix2 p q)
      = Ideal.log (∑ k : Fin 64, Ideal.exp (logits x0 x1 x2 x3 x4 x5 p k - rowMax (logits x0 x1 x2 x3 x4 x5 p))) := by
  rw [val_main_call1_v10_apply, val_main_call1_v9_apply, val_main_call1_v8_apply, val_main_call1_v7_apply,
    val_main_call1_cst_1_apply]
  have e : idx_main_call1_v8 (idx_main_call1_v10 (ix2 p q)) = ix1 p := funext fun a => by match a with | ⟨0, _⟩ => rfl
  rw [e]
  have hsum : ∀ k : Fin 64, val_main_call1_v6 (F := Ideal) x0 x1 x2 x3 x4 x5 (idx_main_call1_v7 (ix1 p) k)
      = Ideal.exp (logits x0 x1 x2 x3 x4 x5 p k - rowMax (logits x0 x1 x2 x3 x4 x5 p)) := fun k => by
    have ek : idx_main_call1_v7 (ix1 p) k = ix2 p k := funext fun a => by match a with | ⟨0, _⟩ => rfl | ⟨1, _⟩ => rfl
    rw [ek, val_main_call1_v6_apply, v5_at, Ideal.hostUnary_exp_def]
  rw [Finset.sum_congr rfl fun k _ => hsum k, Ideal.hostUnary_log_def, Ideal.ofBits_def, Ideal.ofBits_zero_f32, zero_add]

theorem lsm_v89 (h : (⟨1, ![64]⟩ : Shape).ShapeCasts ⟨2, ![1, 64]⟩) :
    biasLsm (val_main_v85 (F := Ideal) x0 x1 x2 x3 x4) (shapeCast ⟨2, ![1, 64]⟩ x5 h)
      = val_main_v89 (F := Ideal) x0 x1 x2 x3 x4 x5 := by
  funext i
  obtain ⟨p, c, rfl⟩ : ∃ (p : Fin 100000) (c : Fin 64), i = ix2 p c := ⟨i 0, i 1, eq_ix2 i⟩
  rw [val_main_v89_apply, v5_at, v10_at, Ideal.subf_def]
  have hrow : (fun q : Fin 64 => val_main_v85 (F := Ideal) x0 x1 x2 x3 x4 (ix2 p q) + shapeCast ⟨2, ![1, 64]⟩ x5 h (ix2 (0 : Fin 1) q))
      = logits x0 x1 x2 x3 x4 x5 p := funext fun q => by rw [shapeCast_a_1a_apply]; rfl
  show lsmRow (fun q : Fin 64 => val_main_v85 (F := Ideal) x0 x1 x2 x3 x4 (ix2 p q) + shapeCast ⟨2, ![1, 64]⟩ x5 h (ix2 (0 : Fin 1) q)) c = _
  rw [hrow]
  rfl

end Lsm

end Cert.ReferenceIdeal.Bridge

end
-- ==== Proof.KernelStretches.lean ====
/-
  The three stretches of host operations between the idealized kernel's regions, each read at the buffers later
  segments use, as functions of the contents at the stretch's entry.

  The first stretch computes, from the edge list alone, the source and destination index vectors (the edges followed by
  one self loop per node) and the edge scales, and writes no argument. The second gathers the rows of the first product
  by source, scales them, scatter-adds them by destination, and reshapes the first bias to a row; the third does the same
  with the second product and the second bias. Each value is named as the reference's stage of the same operations: the
  gather, the scaling and the scatter-add are the same operations on both sides and are never opened.
-/
import proofs.«129945_j55989193670847_1_alg».proof.Proof.Gen.KernelIdeal.Launch
import proofs.«129945_j55989193670847_1_alg».proof.Proof.RefReadP
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.ReadP

/-- Finishes what the one-pass simplification of a fold leaves: a valuation read under a concatenation's list of
    operands, where only rewriting reaches. Each operation's result at its own buffer is its function's value, and at
    any other buffer what was there. -/
macro "finish_results" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The host stretches, over any contents `W` at their entry -/

section Stretches

variable (W : Valuation τ sig (Elt Ideal))

/-! ### The first stretch: index vectors and edge scales from the edge list -/

set_option maxHeartbeats 4000000 in
theorem s0_src (x1 : (⟨Cert.ReferenceIdeal.S2x1600000, .i32⟩ : BufTy).Contents (Elt Ideal)) (h1 : W (Proc.devRef .tc main_arg1) = x1) :
    StableHlo.after (hostOps0 (F := Ideal)) W (Proc.devRef .tc main_v5) = val_main_v6 (F := Ideal) x1 := by
  after_results_simp
  finish_results
  rw [h1]
  rfl

set_option maxHeartbeats 4000000 in
theorem s0_dst (x1 : (⟨Cert.ReferenceIdeal.S2x1600000, .i32⟩ : BufTy).Contents (Elt Ideal)) (h1 : W (Proc.devRef .tc main_arg1) = x1) :
    StableHlo.after (hostOps0 (F := Ideal)) W (Proc.devRef .tc main_v6) = val_main_v7 (F := Ideal) x1 := by
  after_results_simp
  finish_results
  rw [h1]
  rfl

set_option maxHeartbeats 4000000 in
theorem s0_scale (x1 : (⟨Cert.ReferenceIdeal.S2x1600000, .i32⟩ : BufTy).Contents (Elt Ideal)) (h1 : W (Proc.devRef .tc main_arg1) = x1) :
    StableHlo.after (hostOps0 (F := Ideal)) W (Proc.devRef .tc main_v28) = val_main_v29 (F := Ideal) x1 := by
  after_results_simp
  finish_results
  rw [h1]
  rfl

set_option maxHeartbeats 4000000 in
theorem s0_keep_arg0 : StableHlo.after (hostOps0 (F := Ideal)) W (Proc.devRef .tc main_arg0) = W (Proc.devRef .tc main_arg0) := by
  after_results_simp

set_option maxHeartbeats 4000000 in
theorem s0_keep_arg2 : StableHlo.after (hostOps0 (F := Ideal)) W (Proc.devRef .tc main_arg2) = W (Proc.devRef .tc main_arg2) := by
  after_results_simp

set_option maxHeartbeats 4000000 in
theorem s0_keep_arg3 : StableHlo.after (hostOps0 (F := Ideal)) W (Proc.devRef .tc main_arg3) = W (Proc.devRef .tc main_arg3) := by
  after_results_simp

set_option maxHeartbeats 4000000 in
theorem s0_keep_arg4 : StableHlo.after (hostOps0 (F := Ideal)) W (Proc.devRef .tc main_arg4) = W (Proc.devRef .tc main_arg4) := by
  after_results_simp

set_option maxHeartbeats 4000000 in
theorem s0_keep_arg5 : StableHlo.after (hostOps0 (F := Ideal)) W (Proc.devRef .tc main_arg5) = W (Proc.devRef .tc main_arg5) := by
  after_results_simp

/-! ### The second stretch: the first aggregation, and the first bias as a row -/

set_option maxHeartbeats 4000000 in
theorem s1_agg (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal))
    (hh : W (Proc.devRef .tc main_v29) = val_main_v4 (F := Ideal) x0 x2) (hs : W (Proc.devRef .tc main_v5) = val_main_v6 (F := Ideal) x1)
    (hd : W (Proc.devRef .tc main_v6) = val_main_v7 (F := Ideal) x1) (hn : W (Proc.devRef .tc main_v28) = val_main_v29 (F := Ideal) x1) :
    StableHlo.after (hostOps1 (F := Ideal)) W (Proc.devRef .tc main_v42) = val_main_v42 (F := Ideal) x0 x1 x2 := by
  after_results_simp
  rw [hh, hs, hd, hn]
  rfl

set_option maxHeartbeats 4000000 in
theorem s1_bias :
    StableHlo.after (hostOps1 (F := Ideal)) W (Proc.devRef .tc main_v43) = shapeCast S1x128 (W (Proc.devRef .tc main_arg3)) shapeCasts_S128_S1x128 := by
  after_results_simp
  rfl

set_option maxHeartbeats 4000000 in
theorem s1_keep_v5 : StableHlo.after (hostOps1 (F := Ideal)) W (Proc.devRef .tc main_v5) = W (Proc.devRef .tc main_v5) := by
  after_results_simp

set_option maxHeartbeats 4000000 in
theorem s1_keep_v6 : StableHlo.after (hostOps1 (F := Ideal)) W (Proc.devRef .tc main_v6) = W (Proc.devRef .tc main_v6) := by
  after_results_simp

set_option maxHeartbeats 4000000 in
theorem s1_keep_v28 : StableHlo.after (hostOps1 (F := Ideal)) W (Proc.devRef .tc main_v28) = W (Proc.devRef .tc main_v28) := by
  after_results_simp

set_option maxHeartbeats 4000000 in
theorem s1_keep_arg4 : StableHlo.after (hostOps1 (F := Ideal)) W (Proc.devRef .tc main_arg4) = W (Proc.devRef .tc main_arg4) := by
  after_results_simp

set_option maxHeartbeats 4000000 in
theorem s1_keep_arg5 : StableHlo.after (hostOps1 (F := Ideal)) W (Proc.devRef .tc main_arg5) = W (Proc.devRef .tc main_arg5) := by
  after_results_simp

/-! ### The third stretch: the second aggregation, and the second bias as a row -/

set_option maxHeartbeats 4000000 in
theorem s3_agg (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal))
    (hh : W (Proc.devRef .tc main_v45) = val_main_v47 (F := Ideal) x0 x1 x2 x3 x4) (hs : W (Proc.devRef .tc main_v5) = val_main_v49 (F := Ideal) x1)
    (hd : W (Proc.devRef .tc main_v6) = val_main_v50 (F := Ideal) x1) (hn : W (Proc.devRef .tc main_v28) = val_main_v72 (F := Ideal) x1) :
    StableHlo.after (hostOps3 (F := Ideal)) W (Proc.devRef .tc main_v58) = val_main_v85 (F := Ideal) x0 x1 x2 x3 x4 := by
  after_results_simp
  rw [hh, hs, hd, hn]
  rfl

set_option maxHeartbeats 4000000 in
theorem s3_bias :
    StableHlo.after (hostOps3 (F := Ideal)) W (Proc.devRef .tc main_v59) = shapeCast S1x64 (W (Proc.devRef .tc main_arg5)) shapeCasts_S64_S1x64 := by
  after_results_simp
  rfl

end Stretches

end Cert.KernelIdeal.Stretch

end
-- ==== Proof.KernelFold.lean ====
/-
  The idealized kernel's result as a function of its arguments.

  The program's buffer contents are followed from the launch memory through its seven segments. The first stretch of
  host operations computes, from the edge list alone, the source and destination index vectors (the edges followed by
  one self loop per node) and the edge scales; the first region leaves the product x W1; the second stretch gathers its
  rows by source, scales them and scatter-adds them by destination, and reshapes the first bias to a row; the second
  region adds the bias and clamps at zero; the third region leaves the product with W2; the third stretch aggregates
  again and reshapes the second bias; the fourth region adds it and takes log-softmax along each row. Each of these
  values is the stage of the same name in the reference, read as a function of the arguments; the gather, the scaling
  and the scatter-add are the same operations on both sides and are never opened.
-/
import proofs.«129945_j55989193670847_1_alg».proof.Proof.Gen.KernelIdeal.Frame
import proofs.«129945_j55989193670847_1_alg».proof.Proof.Blocks0
import proofs.«129945_j55989193670847_1_alg».proof.Proof.Blocks1
import proofs.«129945_j55989193670847_1_alg».proof.Proof.Blocks2
import proofs.«129945_j55989193670847_1_alg».proof.Proof.Blocks3
import proofs.«129945_j55989193670847_1_alg».proof.Proof.RefReadP
import proofs.«129945_j55989193670847_1_alg».proof.Proof.RefBridge
import proofs.«129945_j55989193670847_1_alg».proof.Proof.KernelStretches
import Idealize.ShloMosaic.Lib.StableHlo.Run

set_option maxRecDepth 16384

noncomputable section

namespace Cert.KernelIdeal.Fold

open Cert.KernelIdeal Cert.KernelIdeal.Gen Cert.ArraySpec
open Idealize.ShloMosaic Idealize.ShloMosaic.TcCoe Idealize.SL.Sem Idealize.ShloMosaic.StableHlo
open Cert.ReferenceIdeal.ReadP Cert.ReferenceIdeal.Bridge Cert.KernelIdeal.Stretch

/-! ## The contents at each boundary, read at the buffers later segments use -/

variable (m : (ℓ : Loc nD τ sig) → Buf (Elt Ideal) ℓ) (ρ : Dev nD → PrngReg) (c : Dev nD)

theorem W1_arg0 : W1 m ρ c (Proc.devRef .tc main_arg0) = m ((c : Thread nD τ).loc main_arg0) :=
  s0_keep_arg0 (W0 m ρ c)
theorem W1_arg2 : W1 m ρ c (Proc.devRef .tc main_arg2) = m ((c : Thread nD τ).loc main_arg2) :=
  s0_keep_arg2 (W0 m ρ c)
theorem W1_arg3 : W1 m ρ c (Proc.devRef .tc main_arg3) = m ((c : Thread nD τ).loc main_arg3) :=
  s0_keep_arg3 (W0 m ρ c)
theorem W1_arg4 : W1 m ρ c (Proc.devRef .tc main_arg4) = m ((c : Thread nD τ).loc main_arg4) :=
  s0_keep_arg4 (W0 m ρ c)
theorem W1_arg5 : W1 m ρ c (Proc.devRef .tc main_arg5) = m ((c : Thread nD τ).loc main_arg5) :=
  s0_keep_arg5 (W0 m ρ c)
theorem W1_src : W1 m ρ c (Proc.devRef .tc main_v5) = val_main_v6 (F := Ideal) (m ((c : Thread nD τ).loc main_arg1)) := s0_src (W0 m ρ c) _ rfl
theorem W1_dst : W1 m ρ c (Proc.devRef .tc main_v6) = val_main_v7 (F := Ideal) (m ((c : Thread nD τ).loc main_arg1)) := s0_dst (W0 m ρ c) _ rfl
theorem W1_scale : W1 m ρ c (Proc.devRef .tc main_v28) = val_main_v29 (F := Ideal) (m ((c : Thread nD τ).loc main_arg1)) := s0_scale (W0 m ρ c) _ rfl

/-! Region 0 writes only its output; it leaves the product of the input and the first weight matrix. -/

theorem W2_prod : W2 m ρ c (Proc.devRef .tc main_v29) = val_main_v4 (F := Ideal) (m ((c : Thread nD τ).loc main_arg0)) (m ((c : Thread nD τ).loc main_arg2)) := by
  refine (W2_arr m ρ c 2).trans ((Blocks0.final (V1 m ρ) c).trans ?_)
  rw [show V1 m ρ c main_arg0 = m ((c : Thread nD τ).loc main_arg0) from W1_arg0 m ρ c,
    show V1 m ρ c main_arg2 = m ((c : Thread nD τ).loc main_arg2) from W1_arg2 m ρ c]
  exact matProd_v4 _ _
theorem W2_src : W2 m ρ c (Proc.devRef .tc main_v5) = val_main_v6 (F := Ideal) (m ((c : Thread nD τ).loc main_arg1)) :=
  (W2_of_ne m ρ c main_v5 (by decide)).trans (W1_src m ρ c)
theorem W2_dst : W2 m ρ c (Proc.devRef .tc main_v6) = val_main_v7 (F := Ideal) (m ((c : Thread nD τ).loc main_arg1)) :=
  (W2_of_ne m ρ c main_v6 (by decide)).trans (W1_dst m ρ c)
theorem W2_scale : W2 m ρ c (Proc.devRef .tc main_v28) = val_main_v29 (F := Ideal) (m ((c : Thread nD τ).loc main_arg1)) :=
  (W2_of_ne m ρ c main_v28 (by decide)).trans (W1_scale m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)

/-! The second stretch. -/

theorem W3_agg : W3 m ρ c (Proc.devRef .tc main_v42) = val_main_v42 (F := Ideal) (m ((c : Thread nD τ).loc main_arg0)) (m ((c : Thread nD τ).loc main_arg1)) (m ((c : Thread nD τ).loc main_arg2)) :=
  s1_agg (W2 m ρ c) _ _ _ (W2_prod m ρ c) (W2_src m ρ c) (W2_dst m ρ c) (W2_scale m ρ c)
theorem W3_bias : W3 m ρ c (Proc.devRef .tc main_v43) = shapeCast S1x128 (m ((c : Thread nD τ).loc main_arg3)) shapeCasts_S128_S1x128 :=
  (s1_bias (W2 m ρ c)).trans (by rw [W2_arg3 m ρ c])
theorem W3_src : W3 m ρ c (Proc.devRef .tc main_v5) = val_main_v6 (F := Ideal) (m ((c : Thread nD τ).loc main_arg1)) := (s1_keep_v5 (W2 m ρ c)).trans (W2_src m ρ c)
theorem W3_dst : W3 m ρ c (Proc.devRef .tc main_v6) = val_main_v7 (F := Ideal) (m ((c : Thread nD τ).loc main_arg1)) := (s1_keep_v6 (W2 m ρ c)).trans (W2_dst m ρ c)
theorem W3_scale : W3 m ρ c (Proc.devRef .tc main_v28) = val_main_v29 (F := Ideal) (m ((c : Thread nD τ).loc main_arg1)) := (s1_keep_v28 (W2 m ρ c)).trans (W2_scale m ρ c)
theorem W3_arg4 : W3 m ρ c (Proc.devRef .tc main_arg4) = m ((c : Thread nD τ).loc main_arg4) := (s1_keep_arg4 (W2 m ρ c)).trans (W2_arg4 m ρ c)
theorem W3_arg5 : W3 m ρ c (Proc.devRef .tc main_arg5) = m ((c : Thread nD τ).loc main_arg5) := (s1_keep_arg5 (W2 m ρ c)).trans (W2_arg5 m ρ c)

/-! Region 1 leaves the aggregated features with the bias added, clamped at zero. -/

theorem W4_hidden : W4 m ρ c (Proc.devRef .tc main_v44) = val_main_v46 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((Blocks1.final (V3 m ρ) c).trans ?_)
  rw [show V3 m ρ c main_v42 = _ from W3_agg m ρ c, show V3 m ρ c main_v43 = _ from W3_bias m ρ c]
  exact clamp_v46 _ _ _ _ _
theorem W4_src : W4 m ρ c (Proc.devRef .tc main_v5) = val_main_v6 (F := Ideal) (m ((c : Thread nD τ).loc main_arg1)) :=
  (W4_of_ne m ρ c main_v5 (by decide)).trans (W3_src m ρ c)
theorem W4_dst : W4 m ρ c (Proc.devRef .tc main_v6) = val_main_v7 (F := Ideal) (m ((c : Thread nD τ).loc main_arg1)) :=
  (W4_of_ne m ρ c main_v6 (by decide)).trans (W3_dst m ρ c)
theorem W4_scale : W4 m ρ c (Proc.devRef .tc main_v28) = val_main_v29 (F := Ideal) (m ((c : Thread nD τ).loc main_arg1)) :=
  (W4_of_ne m ρ c main_v28 (by decide)).trans (W3_scale m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! Region 2 leaves the product of the hidden features and the second weight matrix. -/

theorem W5_prod : W5 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Blocks2.final (V4 m ρ) c).trans ?_)
  rw [show V4 m ρ c main_v44 = _ from W4_hidden m ρ c, show V4 m ρ c main_arg4 = _ from W4_arg4 m ρ c]
  exact matProd_v47 _ _ _ _ _
theorem W5_src : W5 m ρ c (Proc.devRef .tc main_v5) = val_main_v6 (F := Ideal) (m ((c : Thread nD τ).loc main_arg1)) :=
  (W5_of_ne m ρ c main_v5 (by decide)).trans (W4_src m ρ c)
theorem W5_dst : W5 m ρ c (Proc.devRef .tc main_v6) = val_main_v7 (F := Ideal) (m ((c : Thread nD τ).loc main_arg1)) :=
  (W5_of_ne m ρ c main_v6 (by decide)).trans (W4_dst m ρ c)
theorem W5_scale : W5 m ρ c (Proc.devRef .tc main_v28) = val_main_v29 (F := Ideal) (m ((c : Thread nD τ).loc main_arg1)) :=
  (W5_of_ne m ρ c main_v28 (by decide)).trans (W4_scale m ρ c)
theorem W5_arg5 : W5 m ρ c (Proc.devRef .tc main_arg5) = m ((c : Thread nD τ).loc main_arg5) :=
  (W5_of_ne m ρ c main_arg5 (by decide)).trans (W4_arg5 m ρ c)

/-! The third stretch: the reference recomputes the index vectors and the edge scales for its second layer; they are
    the same values. -/

theorem W6_agg : W6 m ρ c (Proc.devRef .tc main_v58) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  s3_agg (W5 m ρ c) _ _ _ _ _ (W5_prod m ρ c) ((W5_src m ρ c).trans (src2_eq _).symm) ((W5_dst m ρ c).trans (dst2_eq _).symm)
    ((W5_scale m ρ c).trans (norm2_eq _).symm)
theorem W6_bias : W6 m ρ c (Proc.devRef .tc main_v59) = shapeCast S1x64 (m ((c : Thread nD τ).loc main_arg5)) shapeCasts_S64_S1x64 :=
  (s3_bias (W5 m ρ c)).trans (by rw [W5_arg5 m ρ c])

/-! Region 3 leaves the log-softmax of the aggregated features with the second bias added: the reference's result. -/

theorem result_eq : W7 m ρ c (Proc.devRef .tc main_v60) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Blocks3.final (V6 m ρ) c).trans ?_)
  rw [show V6 m ρ c main_v58 = _ from W6_agg m ρ c, show V6 m ρ c main_v59 = _ from W6_bias m ρ c]
  exact lsm_v89 _ _ _ _ _ _ _

end Cert.KernelIdeal.Fold

end
-- ==== Proof.RefStretchesAC.lean ====
/-
  The first and third of the reference's four consecutive stretches of host operations, each read at the buffers later stretches use, as
  functions of the contents at the stretch's entry.

  The first stretch computes the product x W1 and, from the edge list alone, the source and destination index vectors
  and the edge scales. The second aggregates (gather by source, scale, scatter-add by destination), adds the first bias
  and clamps at zero. The third computes the product with W2 and recomputes the index vectors and the edge scales. The
  fourth aggregates again, adds the second bias and takes log-softmax along each row. Each value is the stage of that
  name: the operations' composed function of the arguments.
-/
import proofs.«129945_j55989193670847_1_alg».proof.Proof.RefOpsCut
import proofs.«129945_j55989193670847_1_alg».proof.Proof.RefReadP
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Finishes what the one-pass simplification of a fold leaves: a valuation read under a concatenation's list of
    operands, where only rewriting reaches. Each operation's result at its own buffer is its function's value, and at
    any other buffer what was there. -/
macro "finish_results" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

variable (W : Valuation τ sig (Elt Ideal))

/-! ## The first stretch -/

set_option maxHeartbeats 8000000 in
theorem a_v1 (x1 : (⟨S2x1600000, .i32⟩ : BufTy).Contents (Elt Ideal)) (h1 : W (Proc.devRef .tc main_arg1) = x1) : StableHlo.after (opsA (F := Ideal)) W (Proc.devRef .tc main_v1) = val_main_v1 (F := Ideal) x1 := by
  after_results_simp
  finish_results
  rw [h1]
  rfl

set_option maxHeartbeats 8000000 in
theorem a_v3 (x1 : (⟨S2x1600000, .i32⟩ : BufTy).Contents (Elt Ideal)) (h1 : W (Proc.devRef .tc main_arg1) = x1) : StableHlo.after (opsA (F := Ideal)) W (Proc.devRef .tc main_v3) = val_main_v3 (F := Ideal) x1 := by
  after_results_simp
  finish_results
  rw [h1]
  rfl

set_option maxHeartbeats 8000000 in
theorem a_prod (x0 : (⟨S100000x128, .f32⟩ : BufTy).Contents (Elt Ideal)) (x2 : (⟨S128x128, .f32⟩ : BufTy).Contents (Elt Ideal)) (h0 : W (Proc.devRef .tc main_arg0) = x0) (h2 : W (Proc.devRef .tc main_arg2) = x2) :
    StableHlo.after (opsA (F := Ideal)) W (Proc.devRef .tc main_v4) = val_main_v4 (F := Ideal) x0 x2 := by
  after_results_simp
  rw [h0, h2]
  rfl

set_option maxHeartbeats 8000000 in
theorem a_src (x1 : (⟨S2x1600000, .i32⟩ : BufTy).Contents (Elt Ideal)) (h1 : W (Proc.devRef .tc main_arg1) = x1) : StableHlo.after (opsA (F := Ideal)) W (Proc.devRef .tc main_v6) = val_main_v6 (F := Ideal) x1 := by
  after_results_simp
  finish_results
  rw [h1]
  rfl

set_option maxHeartbeats 8000000 in
theorem a_dst (x1 : (⟨S2x1600000, .i32⟩ : BufTy).Contents (Elt Ideal)) (h1 : W (Proc.devRef .tc main_arg1) = x1) : StableHlo.after (opsA (F := Ideal)) W (Proc.devRef .tc main_v7) = val_main_v7 (F := Ideal) x1 := by
  after_results_simp
  finish_results
  rw [h1]
  rfl

set_option maxHeartbeats 8000000 in
theorem a_scale (x1 : (⟨S2x1600000, .i32⟩ : BufTy).Contents (Elt Ideal)) (h1 : W (Proc.devRef .tc main_arg1) = x1) : StableHlo.after (opsA (F := Ideal)) W (Proc.devRef .tc main_v29) = val_main_v29 (F := Ideal) x1 := by
  after_results_simp
  finish_results
  rw [h1]
  rfl

set_option maxHeartbeats 8000000 in
theorem a_keep_arg3 : StableHlo.after (opsA (F := Ideal)) W (Proc.devRef .tc main_arg3) = W (Proc.devRef .tc main_arg3) := by
  after_results_simp

set_option maxHeartbeats 8000000 in
theorem a_keep_arg4 : StableHlo.after (opsA (F := Ideal)) W (Proc.devRef .tc main_arg4) = W (Proc.devRef .tc main_arg4) := by
  after_results_simp

set_option maxHeartbeats 8000000 in
theorem a_keep_arg5 : StableHlo.after (opsA (F := Ideal)) W (Proc.devRef .tc main_arg5) = W (Proc.devRef .tc main_arg5) := by
  after_results_simp

/-! ## The third stretch -/

set_option maxHeartbeats 8000000 in
theorem c_prod (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal))
    (hh : W (Proc.devRef .tc main_v46) = val_main_v46 (F := Ideal) x0 x1 x2 x3) (h4 : W (Proc.devRef .tc main_arg4) = x4) :
    StableHlo.after (opsC (F := Ideal)) W (Proc.devRef .tc main_v47) = val_main_v47 (F := Ideal) x0 x1 x2 x3 x4 := by
  after_results_simp
  rw [hh, h4]
  rfl

set_option maxHeartbeats 8000000 in
theorem c_src (x1 : (⟨S2x1600000, .i32⟩ : BufTy).Contents (Elt Ideal)) (hv1 : W (Proc.devRef .tc main_v1) = val_main_v1 (F := Ideal) x1) : StableHlo.after (opsC (F := Ideal)) W (Proc.devRef .tc main_v49) = val_main_v49 (F := Ideal) x1 := by
  after_results_simp
  finish_results
  rw [hv1]
  rfl

set_option maxHeartbeats 8000000 in
theorem c_dst (x1 : (⟨S2x1600000, .i32⟩ : BufTy).Contents (Elt Ideal)) (hv3 : W (Proc.devRef .tc main_v3) = val_main_v3 (F := Ideal) x1) : StableHlo.after (opsC (F := Ideal)) W (Proc.devRef .tc main_v50) = val_main_v50 (F := Ideal) x1 := by
  after_results_simp
  finish_results
  rw [hv3]
  rfl

set_option maxHeartbeats 8000000 in
theorem c_scale (x1 : (⟨S2x1600000, .i32⟩ : BufTy).Contents (Elt Ideal)) (hv1 : W (Proc.devRef .tc main_v1) = val_main_v1 (F := Ideal) x1) (hv3 : W (Proc.devRef .tc main_v3) = val_main_v3 (F := Ideal) x1) : StableHlo.after (opsC (F := Ideal)) W (Proc.devRef .tc main_v72) = val_main_v72 (F := Ideal) x1 := by
  after_results_simp
  finish_results
  rw [hv1, hv3]
  rfl

set_option maxHeartbeats 8000000 in
theorem c_keep_arg5 : StableHlo.after (opsC (F := Ideal)) W (Proc.devRef .tc main_arg5) = W (Proc.devRef .tc main_arg5) := by
  after_results_simp

end Cert.ReferenceIdeal.Stretch

end
-- ==== Proof.RefStretchB.lean ====
/-
  The reference's first aggregation stretch, read at the buffers later stretches use, as
  functions of the contents at the stretch's entry.

  After the first product, one stretch aggregates (gather by source, scale, scatter-add by destination) and adds the
  first bias; the called function that follows clamps at zero. After the second product, one stretch aggregates again and
  adds the second bias; the called function that follows takes log-softmax along each row. A called function's
  operations move their values between the value's type and the buffer's type, which for a literal buffer is the
  identity. Each value is the stage of that name: the operations' composed function of the arguments.
-/
import proofs.«129945_j55989193670847_1_alg».proof.Proof.RefOpsCut
import proofs.«129945_j55989193670847_1_alg».proof.Proof.RefReadP
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))

/-! ## The first aggregation and bias -/

set_option maxHeartbeats 8000000 in
theorem b_pre (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
    (hh : W (Proc.devRef .tc main_v4) = val_main_v4 (F := Ideal) x0 x2) (hs : W (Proc.devRef .tc main_v6) = val_main_v6 (F := Ideal) x1)
    (hd : W (Proc.devRef .tc main_v7) = val_main_v7 (F := Ideal) x1) (hn : W (Proc.devRef .tc main_v29) = val_main_v29 (F := Ideal) x1)
    (hb : W (Proc.devRef .tc main_arg3) = x3) :
    StableHlo.after (opsB (F := Ideal)) W (Proc.devRef .tc main_v45) = val_main_v45 (F := Ideal) x0 x1 x2 x3 := by
  after_results_simp
  rw [hh, hs, hd, hn, hb]
  rfl

set_option maxHeartbeats 8000000 in
theorem b_keep_v1 : StableHlo.after (opsB (F := Ideal)) W (Proc.devRef .tc main_v1) = W (Proc.devRef .tc main_v1) := by
  after_results_simp

set_option maxHeartbeats 8000000 in
theorem b_keep_v3 : StableHlo.after (opsB (F := Ideal)) W (Proc.devRef .tc main_v3) = W (Proc.devRef .tc main_v3) := by
  after_results_simp

set_option maxHeartbeats 8000000 in
theorem b_keep_arg4 : StableHlo.after (opsB (F := Ideal)) W (Proc.devRef .tc main_arg4) = W (Proc.devRef .tc main_arg4) := by
  after_results_simp

set_option maxHeartbeats 8000000 in
theorem b_keep_arg5 : StableHlo.after (opsB (F := Ideal)) W (Proc.devRef .tc main_arg5) = W (Proc.devRef .tc main_arg5) := by
  after_results_simp

end Cert.ReferenceIdeal.Stretch

end
-- ==== Proof.RefStretchR.lean ====
/-
  The reference's clamp at zero (a called function's three operations), read at the buffers later stretches use, as
  functions of the contents at the stretch's entry.

  After the first product, one stretch aggregates (gather by source, scale, scatter-add by destination) and adds the
  first bias; the called function that follows clamps at zero. After the second product, one stretch aggregates again and
  adds the second bias; the called function that follows takes log-softmax along each row. A called function's
  operations move their values between the value's type and the buffer's type, which for a literal buffer is the
  identity. Each value is the stage of that name: the operations' composed function of the arguments.
-/
import proofs.«129945_j55989193670847_1_alg».proof.Proof.RefOpsCut
import proofs.«129945_j55989193670847_1_alg».proof.Proof.RefReadP
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))

/-! ## The clamp at zero -/

set_option maxHeartbeats 8000000 in
theorem r_hidden (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (hp : W (Proc.devRef .tc main_v45) = val_main_v45 (F := Ideal) x0 x1 x2 x3) :
    StableHlo.after (opsR (F := Ideal)) W (Proc.devRef .tc main_v46) = val_main_v46 (F := Ideal) x0 x1 x2 x3 := by
  after_results_simp
  simp only [cast_eq]
  rw [hp]
  rfl

set_option maxHeartbeats 8000000 in
theorem r_keep_v1 : StableHlo.after (opsR (F := Ideal)) W (Proc.devRef .tc main_v1) = W (Proc.devRef .tc main_v1) := by
  after_results_simp

set_option maxHeartbeats 8000000 in
theorem r_keep_v3 : StableHlo.after (opsR (F := Ideal)) W (Proc.devRef .tc main_v3) = W (Proc.devRef .tc main_v3) := by
  after_results_simp

set_option maxHeartbeats 8000000 in
theorem r_keep_arg4 : StableHlo.after (opsR (F := Ideal)) W (Proc.devRef .tc main_arg4) = W (Proc.devRef .tc main_arg4) := by
  after_results_simp

set_option maxHeartbeats 8000000 in
theorem r_keep_arg5 : StableHlo.after (opsR (F := Ideal)) W (Proc.devRef .tc main_arg5) = W (Proc.devRef .tc main_arg5) := by
  after_results_simp

end Cert.ReferenceIdeal.Stretch

end
-- ==== Proof.RefStretchD.lean ====
/-
  The reference's second aggregation stretch, read at the buffers later stretches use, as
  functions of the contents at the stretch's entry.

  After the first product, one stretch aggregates (gather by source, scale, scatter-add by destination) and adds the
  first bias; the called function that follows clamps at zero. After the second product, one stretch aggregates again and
  adds the second bias; the called function that follows takes log-softmax along each row. A called function's
  operations move their values between the value's type and the buffer's type, which for a literal buffer is the
  identity. Each value is the stage of that name: the operations' composed function of the arguments.
-/
import proofs.«129945_j55989193670847_1_alg».proof.Proof.RefOpsCut
import proofs.«129945_j55989193670847_1_alg».proof.Proof.RefReadP
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))

/-! ## The second aggregation and bias -/

set_option maxHeartbeats 8000000 in
theorem d_logits (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (hh : W (Proc.devRef .tc main_v47) = val_main_v47 (F := Ideal) x0 x1 x2 x3 x4) (hs : W (Proc.devRef .tc main_v49) = val_main_v49 (F := Ideal) x1)
    (hd : W (Proc.devRef .tc main_v50) = val_main_v50 (F := Ideal) x1) (hn : W (Proc.devRef .tc main_v72) = val_main_v72 (F := Ideal) x1)
    (h5 : W (Proc.devRef .tc main_arg5) = x5) :
    StableHlo.after (opsD (F := Ideal)) W (Proc.devRef .tc main_v88) = val_main_v88 (F := Ideal) x0 x1 x2 x3 x4 x5 := by
  after_results_simp
  rw [hh, hs, hd, hn, h5]
  rfl

end Cert.ReferenceIdeal.Stretch

end
-- ==== Proof.LibTypedRef.lean ====
/-
  A typed reference's two transports cancel.

  A called function's operations are stated over references that carry the type of the tensor value they hold; a value
  is moved from that type to the buffer's own type when it is written and back when it is read, along the equation of
  the two types. Writing and then reading is the identity, whatever that equation's proof.
-/
import Idealize.ShloMosaic.Lib.StableHlo

namespace Cert.LibTypedRef

open Idealize.ShloMosaic Idealize.ShloMosaic.StableHlo

variable {sig : RefSig} {T : BufTy} {Val : EltTy → Type}

/-- A value moved to the buffer's type and back is unchanged. -/
theorem ofBuf_toBuf (x : TRef sig T) (v : T.Contents Val) : x.ofBuf (x.toBuf v) = v := by
  obtain ⟨r, h, _, _⟩ := x
  subst h
  rfl

/-- A buffer's contents moved to the value's type and back are unchanged. -/
theorem toBuf_ofBuf (x : TRef sig T) (v : x.ref.ty.Contents Val) : x.toBuf (x.ofBuf v) = v := by
  obtain ⟨r, h, _, _⟩ := x
  subst h
  rfl

end Cert.LibTypedRef
-- ==== Proof.RefStretchS.lean ====
/-
  The reference's log-softmax (a called function's fifteen operations), read at the buffers later stretches use, as
  functions of the contents at the stretch's entry.

  After the first product, one stretch aggregates (gather by source, scale, scatter-add by destination) and adds the
  first bias; the called function that follows clamps at zero. After the second product, one stretch aggregates again and
  adds the second bias; the called function that follows takes log-softmax along each row. A called function's
  operations move their values between the value's type and the buffer's type: written and read back that is the
  identity, and so it is at a literal buffer, whose type is the value's. Each value is the stage of that name: the operations' composed function of the arguments.
-/
import proofs.«129945_j55989193670847_1_alg».proof.Proof.RefOpsCut
import proofs.«129945_j55989193670847_1_alg».proof.Proof.RefReadP
import proofs.«129945_j55989193670847_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))

/-! ## Log-softmax -/

set_option maxHeartbeats 8000000 in
theorem s_out (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (hl : W (Proc.devRef .tc main_v88) = val_main_v88 (F := Ideal) x0 x1 x2 x3 x4 x5) :
    StableHlo.after (opsS (F := Ideal)) W (Proc.devRef .tc main_v89) = val_main_v89 (F := Ideal) x0 x1 x2 x3 x4 x5 := by
  after_results_simp
  simp only [Cert.LibTypedRef.ofBuf_toBuf]
  simp only [cast_eq]
  rw [hl]
  rfl

end Cert.ReferenceIdeal.Stretch

end
-- ==== Proof.RefFold.lean ====
/-
  The idealized reference's result as a function of its arguments, and its run.

  The 126 operations are six stretches run one after the other. From the launch contents the first stretch leaves the
  first product, the index vectors and the edge scales as functions of the arguments; the second and third the hidden
  features; the fourth the second product and the index vectors and scales again; the fifth and sixth the result. No operation writes an
  argument. So every weakly fair execution terminates with the result buffer at the last stage's value of the launch
  arguments and the arguments unchanged.
-/
import proofs.«129945_j55989193670847_1_alg».proof.Proof.RefStretchesAC
import proofs.«129945_j55989193670847_1_alg».proof.Proof.RefStretchB
import proofs.«129945_j55989193670847_1_alg».proof.Proof.RefStretchR
import proofs.«129945_j55989193670847_1_alg».proof.Proof.RefStretchD
import proofs.«129945_j55989193670847_1_alg».proof.Proof.RefStretchS
import Idealize.ShloMosaic.Lib.Pipeline.Frame

set_option maxRecDepth 16384

noncomputable section

namespace Cert.ReferenceIdeal.Fold

open Cert.ReferenceIdeal Cert.ReferenceIdeal.Gen Cert.ReferenceIdeal.ValueP Cert.ReferenceIdeal.ReadP Cert.ReferenceIdeal.Stretch
open Idealize.ShloMosaic Idealize.ShloMosaic.TcCoe Idealize.SL.Sem Idealize.ShloMosaic.StableHlo

/-- The fold of the whole list is the six stretches' folds in turn. -/
theorem fold_cut (W : Valuation τ sig (Elt Ideal)) :
    StableHlo.after (ops (F := Ideal)) W
      = StableHlo.after (opsS (F := Ideal)) (StableHlo.after (opsD (F := Ideal)) (StableHlo.after (opsC (F := Ideal))
          (StableHlo.after (opsR (F := Ideal)) (StableHlo.after (opsB (F := Ideal)) (StableHlo.after (opsA (F := Ideal)) W))))) := by
  rw [ops_cut, StableHlo.after_append, StableHlo.after_append, StableHlo.after_append, StableHlo.after_append,
    StableHlo.after_append]

variable (m : (ℓ : Loc nD τ sig) → Buf (Elt Ideal) ℓ) (d : Dev nD)

/-- The contents after each of the first five stretches. -/
abbrev L1 : Valuation τ sig (Elt Ideal) := StableHlo.after (opsA (F := Ideal)) (launchContents m d)
abbrev L2 : Valuation τ sig (Elt Ideal) := StableHlo.after (opsB (F := Ideal)) (L1 m d)
abbrev L2r : Valuation τ sig (Elt Ideal) := StableHlo.after (opsR (F := Ideal)) (L2 m d)
abbrev L3 : Valuation τ sig (Elt Ideal) := StableHlo.after (opsC (F := Ideal)) (L2r m d)
abbrev L4 : Valuation τ sig (Elt Ideal) := StableHlo.after (opsD (F := Ideal)) (L3 m d)

theorem L1_prod : L1 m d (Proc.devRef .tc main_v4) = val_main_v4 (F := Ideal) (m ((d.tc : Thread nD τ).loc main_arg0)) (m ((d.tc : Thread nD τ).loc main_arg2)) := a_prod _ _ _ rfl rfl
theorem L1_src : L1 m d (Proc.devRef .tc main_v6) = val_main_v6 (F := Ideal) (m ((d.tc : Thread nD τ).loc main_arg1)) := a_src _ _ rfl
theorem L1_dst : L1 m d (Proc.devRef .tc main_v7) = val_main_v7 (F := Ideal) (m ((d.tc : Thread nD τ).loc main_arg1)) := a_dst _ _ rfl
theorem L1_scale : L1 m d (Proc.devRef .tc main_v29) = val_main_v29 (F := Ideal) (m ((d.tc : Thread nD τ).loc main_arg1)) := a_scale _ _ rfl
theorem L1_v1 : L1 m d (Proc.devRef .tc main_v1) = val_main_v1 (F := Ideal) (m ((d.tc : Thread nD τ).loc main_arg1)) := a_v1 _ _ rfl
theorem L1_v3 : L1 m d (Proc.devRef .tc main_v3) = val_main_v3 (F := Ideal) (m ((d.tc : Thread nD τ).loc main_arg1)) := a_v3 _ _ rfl
theorem L1_arg3 : L1 m d (Proc.devRef .tc main_arg3) = m ((d.tc : Thread nD τ).loc main_arg3) := a_keep_arg3 _
theorem L1_arg4 : L1 m d (Proc.devRef .tc main_arg4) = m ((d.tc : Thread nD τ).loc main_arg4) := a_keep_arg4 _
theorem L1_arg5 : L1 m d (Proc.devRef .tc main_arg5) = m ((d.tc : Thread nD τ).loc main_arg5) := a_keep_arg5 _

theorem L2_pre : L2 m d (Proc.devRef .tc main_v45) = val_main_v45 (F := Ideal) (m ((d.tc : Thread nD τ).loc main_arg0)) (m ((d.tc : Thread nD τ).loc main_arg1)) (m ((d.tc : Thread nD τ).loc main_arg2)) (m ((d.tc : Thread nD τ).loc main_arg3)) :=
  b_pre _ _ _ _ _ (L1_prod m d) (L1_src m d) (L1_dst m d) (L1_scale m d) (L1_arg3 m d)
theorem L2_v1 : L2 m d (Proc.devRef .tc main_v1) = val_main_v1 (F := Ideal) (m ((d.tc : Thread nD τ).loc main_arg1)) := (b_keep_v1 _).trans (L1_v1 m d)
theorem L2_v3 : L2 m d (Proc.devRef .tc main_v3) = val_main_v3 (F := Ideal) (m ((d.tc : Thread nD τ).loc main_arg1)) := (b_keep_v3 _).trans (L1_v3 m d)
theorem L2_arg4 : L2 m d (Proc.devRef .tc main_arg4) = m ((d.tc : Thread nD τ).loc main_arg4) := (b_keep_arg4 _).trans (L1_arg4 m d)
theorem L2_arg5 : L2 m d (Proc.devRef .tc main_arg5) = m ((d.tc : Thread nD τ).loc main_arg5) := (b_keep_arg5 _).trans (L1_arg5 m d)

theorem L2r_hidden : L2r m d (Proc.devRef .tc main_v46) = val_main_v46 (F := Ideal) (m ((d.tc : Thread nD τ).loc main_arg0)) (m ((d.tc : Thread nD τ).loc main_arg1)) (m ((d.tc : Thread nD τ).loc main_arg2)) (m ((d.tc : Thread nD τ).loc main_arg3)) :=
  r_hidden _ _ _ _ _ (L2_pre m d)
theorem L2r_v1 : L2r m d (Proc.devRef .tc main_v1) = val_main_v1 (F := Ideal) (m ((d.tc : Thread nD τ).loc main_arg1)) := (r_keep_v1 _).trans (L2_v1 m d)
theorem L2r_v3 : L2r m d (Proc.devRef .tc main_v3) = val_main_v3 (F := Ideal) (m ((d.tc : Thread nD τ).loc main_arg1)) := (r_keep_v3 _).trans (L2_v3 m d)
theorem L2r_arg4 : L2r m d (Proc.devRef .tc main_arg4) = m ((d.tc : Thread nD τ).loc main_arg4) := (r_keep_arg4 _).trans (L2_arg4 m d)
theorem L2r_arg5 : L2r m d (Proc.devRef .tc main_arg5) = m ((d.tc : Thread nD τ).loc main_arg5) := (r_keep_arg5 _).trans (L2_arg5 m d)

theorem L3_prod : L3 m d (Proc.devRef .tc main_v47) = val_main_v47 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) :=
  c_prod _ _ _ _ _ _ (L2r_hidden m d) (L2r_arg4 m d)
theorem L3_src : L3 m d (Proc.devRef .tc main_v49) = val_main_v49 (F := Ideal) (m ((d.tc : Thread nD τ).loc main_arg1)) := c_src _ _ (L2r_v1 m d)
theorem L3_dst : L3 m d (Proc.devRef .tc main_v50) = val_main_v50 (F := Ideal) (m ((d.tc : Thread nD τ).loc main_arg1)) := c_dst _ _ (L2r_v3 m d)
theorem L3_scale : L3 m d (Proc.devRef .tc main_v72) = val_main_v72 (F := Ideal) (m ((d.tc : Thread nD τ).loc main_arg1)) := c_scale _ _ (L2r_v1 m d) (L2r_v3 m d)
theorem L3_arg5 : L3 m d (Proc.devRef .tc main_arg5) = m ((d.tc : Thread nD τ).loc main_arg5) := (c_keep_arg5 _).trans (L2r_arg5 m d)

theorem L4_logits : L4 m d (Proc.devRef .tc main_v88) = val_main_v88 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) :=
  d_logits _ _ _ _ _ _ _ (L3_prod m d) (L3_src m d) (L3_dst m d) (L3_scale m d) (L3_arg5 m d)

/-- The result buffer after all 126 operations: the last stage's value of the launch arguments. -/
theorem out_eq : StableHlo.after (ops (F := Ideal)) (launchContents m d) (Proc.devRef .tc main_v89)
    = val_main_v89 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  rw [fold_cut]
  exact s_out _ _ _ _ _ _ _ (L4_logits m d)

set_option maxHeartbeats 8000000 in
/-- No operation writes argument 0. -/
theorem kept_arg0 (W : Valuation τ sig (Elt Ideal)) : StableHlo.after (ops (F := Ideal)) W (Proc.devRef .tc main_arg0) = W (Proc.devRef .tc main_arg0) := by
  after_results_simp

set_option maxHeartbeats 8000000 in
/-- No operation writes argument 1. -/
theorem kept_arg1 (W : Valuation τ sig (Elt Ideal)) : StableHlo.after (ops (F := Ideal)) W (Proc.devRef .tc main_arg1) = W (Proc.devRef .tc main_arg1) := by
  after_results_simp

set_option maxHeartbeats 8000000 in
/-- No operation writes argument 2. -/
theorem kept_arg2 (W : Valuation τ sig (Elt Ideal)) : StableHlo.after (ops (F := Ideal)) W (Proc.devRef .tc main_arg2) = W (Proc.devRef .tc main_arg2) := by
  after_results_simp

set_option maxHeartbeats 8000000 in
/-- No operation writes argument 3. -/
theorem kept_arg3 (W : Valuation τ sig (Elt Ideal)) : StableHlo.after (ops (F := Ideal)) W (Proc.devRef .tc main_arg3) = W (Proc.devRef .tc main_arg3) := by
  after_results_simp

set_option maxHeartbeats 8000000 in
/-- No operation writes argument 4. -/
theorem kept_arg4 (W : Valuation τ sig (Elt Ideal)) : StableHlo.after (ops (F := Ideal)) W (Proc.devRef .tc main_arg4) = W (Proc.devRef .tc main_arg4) := by
  after_results_simp

set_option maxHeartbeats 8000000 in
/-- No operation writes argument 5. -/
theorem kept_arg5 (W : Valuation τ sig (Elt Ideal)) : StableHlo.after (ops (F := Ideal)) W (Proc.devRef .tc main_arg5) = W (Proc.devRef .tc main_arg5) := by
  after_results_simp

/-- Every weakly fair execution of the reference terminates, nothing faulting, with the result at the last stage's
    value of the launch arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v89)
        = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v89).trans (out_eq m c),
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _)⟩)
    (Cert.ReferenceIdeal.ValueP.run (F := Ideal) m ρ)

end Cert.ReferenceIdeal.Fold

end
-- ==== Proof.lean ====
/-
  The certificate: a two-layer graph convolution, kernel against reference, over the extended reals.

  Both programs compute, from node features x, an edge list and two weight matrices and biases: the degree-normalised
  edge scales (with one self loop per node); H = clamp (aggregate (x W1) + b1) at zero; and log-softmax along each row
  of aggregate (H W2) + b2, where aggregate gathers rows by source node, scales each by its edge scale and scatter-adds
  them by destination node. The kernel computes the two products, the bias-and-clamp and the bias-and-log-softmax in
  four grid regions over blocks of 4000 rows, with the aggregations and the edge scales as host operations between
  them; the reference is host operations throughout and recomputes the edge scales for its second layer.

  Over the extended reals the narrowing of the products' operands to a shorter float format is the identity, a product
  block by block is the whole product (each output row depends on one input row), a lane maximum and a lane sum are the
  host's reductions, and one more maximum with negative infinity changes nothing; the aggregation is the same operations
  on both sides. No law of arithmetic beyond these readings is used, so the precondition is never opened.

  The three frames: the two kernel programs' are generated; the reference's is its run with the result dropped. The
  ideal pass rewrote nothing, so there is nothing to preserve. The results agree because both runs end at one function
  of the arguments: the reference's last stage.
-/
import proofs.«129945_j55989193670847_1_alg».proof.Defs
import proofs.«129945_j55989193670847_1_alg».proof.Proof.Gen.Kernel
import proofs.«129945_j55989193670847_1_alg».proof.Proof.Gen.Kernel.Frame
import proofs.«129945_j55989193670847_1_alg».proof.Proof.Gen.KernelIdeal
import proofs.«129945_j55989193670847_1_alg».proof.Proof.Gen.KernelIdeal.Frame
import proofs.«129945_j55989193670847_1_alg».proof.Proof.Gen.ReferenceIdeal
import proofs.«129945_j55989193670847_1_alg».proof.Proof.Gen.Pre_finite_inputs
import proofs.«129945_j55989193670847_1_alg».proof.Proof.KernelRun
import proofs.«129945_j55989193670847_1_alg».proof.Proof.KernelFold
import proofs.«129945_j55989193670847_1_alg».proof.Proof.RefFold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result's value dropped. -/
theorem frame_ri : Cert.frame_ReferenceIdeal := fun m ρ _ =>
  (θ_run Cert.ReferenceIdeal.defs _ _).mono (fun _ h c => (h c).2) (Cert.ReferenceIdeal.Fold.run m ρ)

/-- The ideal pass rewrote no operation. -/
theorem preserves : Cert.preserves_Kernel_KernelIdeal := trivial

/-- From memories agreeing on the arguments both idealized programs end with the result at the reference's last
    stage read at the kernel's launch arguments. -/
theorem algebraic : Cert.algebraic_KernelIdeal_ReferenceIdeal := by
  intro m ρ m' ρ' _ hagree
  refine ⟨fun c => Cert.ReferenceIdeal.ReadP.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Fold.run m' ρ')
    obtain ⟨a0, a1, a2, a3, a4, a5⟩ := hagree c
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
